-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S600000 : Shape := ⟨1, ![600000]⟩
abbrev S128x256 : Shape := ⟨2, ![128, 256]⟩
abbrev S256x128 : Shape := ⟨2, ![256, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S200000x128 .f32) (main_arg1 : IVec S600000 32) (main_arg2 : IVec S600000 32) (main_arg3 : FVec F S600000 .f32) (main_arg4 : FVec F S128x256 .f32) (main_arg5 : FVec F S256x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S200000x128 : Shape := ⟨2, ![200000, 128]⟩
abbrev S600000 : Shape := ⟨1, ![600000]⟩
abbrev S128x256 : Shape := ⟨2, ![128, 256]⟩
abbrev S256x128 : Shape := ⟨2, ![256, 128]⟩
abbrev S200000x256 : Shape := ⟨2, ![200000, 256]⟩
abbrev S8000x128 : Shape := ⟨2, ![8000, 128]⟩
abbrev S8000x256 : Shape := ⟨2, ![8000, 256]⟩
abbrev S600000x1 : Shape := ⟨2, ![600000, 1]⟩
abbrev S_ : Shape := ⟨0, ![]⟩
abbrev S600000x256 : Shape := ⟨2, ![600000, 256]⟩
abbrev S300000x256 : Shape := ⟨2, ![300000, 256]⟩
abbrev S300000x128 : Shape := ⟨2, ![300000, 128]⟩
abbrev S6000x256 : Shape := ⟨2, ![6000, 256]⟩
abbrev S6000x128 : Shape := ⟨2, ![6000, 128]⟩
abbrev S600000x128 : Shape := ⟨2, ![600000, 128]⟩

abbrev nBuf : Space → Nat
  | .hbm => 60
  | .vmem => 10
  | .smem => 0
  | _ => 0

abbrev bufTy : (tb : Table) → Fin (tcTables nBuf tb) → BufTy
  | .hbm, ⟨0, _⟩ => ⟨S200000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x256, .f32⟩
  | .hbm, ⟨5, _⟩ => ⟨S256x128, .f32⟩
  | .hbm, ⟨6, _⟩ => ⟨S200000x128, .bf16⟩
  | .hbm, ⟨7, _⟩ => ⟨S128x256, .bf16⟩
  | .hbm, ⟨8, _⟩ => ⟨S200000x256, .f32⟩
  | .hbm, ⟨9, _⟩ => ⟨S600000x1, .f32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x256, .f32⟩
  | .hbm, ⟨19, _⟩ => ⟨S600000x256, .f32⟩
  | .hbm, ⟨20, _⟩ => ⟨S600000x256, .f32⟩
  | .hbm, ⟨21, _⟩ => ⟨S_, .f32⟩
  | .hbm, ⟨22, _⟩ => ⟨S300000x256, .f32⟩
  | .hbm, ⟨23, _⟩ => ⟨S600000x1, .i32⟩
  | .hbm, ⟨24, _⟩ => ⟨S300000x256, .f32⟩
  | .hbm, ⟨25, _⟩ => ⟨S300000x256, .f32⟩
  | .hbm, ⟨26, _⟩ => ⟨S300000x256, .f32⟩
  | .hbm, ⟨27, _⟩ => ⟨S_, .f32⟩
  | .hbm, ⟨28, _⟩ => ⟨S300000x256, .f32⟩
  | .hbm, ⟨29, _⟩ => ⟨S300000x256, .f32⟩
  | .hbm, ⟨30, _⟩ => ⟨S_, .f32⟩
  | .hbm, ⟨31, _⟩ => ⟨S300000x256, .f32⟩
  | .hbm, ⟨32, _⟩ => ⟨S300000x256, .f32⟩
  | .hbm, ⟨33, _⟩ => ⟨S300000x256, .bf16⟩
  | .hbm, ⟨34, _⟩ => ⟨S256x128, .bf16⟩
  | .hbm, ⟨35, _⟩ => ⟨S300000x128, .f32⟩
  | .hbm, ⟨36, _⟩ => ⟨S600000x1, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S600000x128, .f32⟩
  | .hbm, ⟨47, _⟩ => ⟨S600000x128, .f32⟩
  | .hbm, ⟨48, _⟩ => ⟨S_, .f32⟩
  | .hbm, ⟨49, _⟩ => ⟨S200000x128, .f32⟩
  | .hbm, ⟨50, _⟩ => ⟨S600000x1, .i32⟩
  | .hbm, ⟨51, _⟩ => ⟨S200000x128, .f32⟩
  | .hbm, ⟨52, _⟩ => ⟨S200000x128, .f32⟩
  | .hbm, ⟨53, _⟩ => ⟨S200000x128, .f32⟩
  | .hbm, ⟨54, _⟩ => ⟨S_, .f32⟩
  | .hbm, ⟨55, _⟩ => ⟨S200000x128, .f32⟩
  | .hbm, ⟨56, _⟩ => ⟨S200000x128, .f32⟩
  | .hbm, ⟨57, _⟩ => ⟨S_, .f32⟩
  | .hbm, ⟨58, _⟩ => ⟨S200000x128, .f32⟩
  | .hbm, ⟨59, _⟩ => ⟨S200000x128, .f32⟩
  | .local _ .vmem, ⟨0, _⟩ => ⟨S8000x128, .bf16⟩
  | .local _ .vmem, ⟨1, _⟩ => ⟨S8000x128, .bf16⟩
  | .local _ .vmem, ⟨2, _⟩ => ⟨S128x256, .bf16⟩
  | .local _ .vmem, ⟨3, _⟩ => ⟨S8000x256, .f32⟩
  | .local _ .vmem, ⟨4, _⟩ => ⟨S8000x256, .f32⟩
  | .local _ .vmem, ⟨5, _⟩ => ⟨S6000x256, .bf16⟩
  | .local _ .vmem, ⟨6, _⟩ => ⟨S6000x256, .bf16⟩
  | .local _ .vmem, ⟨7, _⟩ => ⟨S256x128, .bf16⟩
  | .local _ .vmem, ⟨8, _⟩ => ⟨S6000x128, .f32⟩
  | .local _ .vmem, ⟨9, _⟩ => ⟨S6000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8000x256_S8000x256_0_0 : ∀ a, (![0, 0] : Fin 2 → Nat) a + S8000x256.size a ≤ S8000x256.size a
  h_S8000x256 : 0 < S8000x256.numel
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x256_0_1 : S600000x1.BroadcastsInDim S600000x256 (![0, 1] : Fin 2 → Fin S600000x256.rank)
  bcast_S_S300000x256 : S_.BroadcastsInDim S300000x256 (![] : Fin 0 → Fin S300000x256.rank)
  inb_S6000x256_S6000x256_0_0 : ∀ a, (![0, 0] : Fin 2 → Nat) a + S6000x256.size a ≤ S6000x256.size a
  h_S6000x256 : 0 < S6000x256.numel
  shapeCasts_S6000x256_S6000x256 : S6000x256.ShapeCasts S6000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S6000x128_S6000x128_0_0 : ∀ a, (![0, 0] : Fin 2 → Nat) a + S6000x128.size a ≤ S6000x128.size a
  h_S6000x128 : 0 < S6000x128.numel
  bcast_S600000x1_S600000x128_0_1 : S600000x1.BroadcastsInDim S600000x128 (![0, 1] : Fin 2 → Fin S600000x128.rank)
  bcast_S_S200000x128 : S_.BroadcastsInDim S200000x128 (![] : Fin 0 → Fin S200000x128.rank)
  dot_S8000x128_S128x256_S8000x256_1_0_0_1_n_n_wf : DotDims.WF S8000x128 S128x256 S8000x256 [1] [0] [0] [1] [] []
  gather_S200000x256_S600000x1_S600000x256_1_0_n_n_0_1_1256_wf : GatherDims.WF S200000x256 S600000x1 S600000x256 [1] [0] [] [0] [] 1 ![1, 256]
  scatter_S300000x256_S600000x1_S600000x256_1_0_0_1_wf : ScatterDims.WF S300000x256 S600000x1 S600000x256 [1] [0] [0] 1
  dot_S6000x256_S256x128_S6000x128_1_0_0_1_n_n_wf : DotDims.WF S6000x256 S256x128 S6000x128 [1] [0] [0] [1] [] []
  gather_S300000x128_S600000x1_S600000x128_1_0_n_n_0_1_1128_wf : GatherDims.WF S300000x128 S600000x1 S600000x128 [1] [0] [] [0] [] 1 ![1, 128]
  scatter_S200000x128_S600000x1_S600000x128_1_0_0_1_wf : ScatterDims.WF S200000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .bf16 = 32 ∨ (Rect.block (s := S200000x128) S8000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x256.size a ≤ S200000x256.size a
  hwx0_2 : ∀ i : grid0.Coords, EltTy.bits .f32 = 32 ∨ (Rect.block (s := S200000x256) S8000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x256.size a ≤ S300000x256.size a
  hwx1_0 : ∀ i : grid1.Coords, EltTy.bits .bf16 = 32 ∨ (Rect.block (s := S300000x256) S6000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x128.size a ≤ S300000x128.size a
  hwx1_2 : ∀ i : grid1.Coords, EltTy.bits .f32 = 32 ∨ (Rect.block (s := S300000x128) S6000x128.size (cc1_transform_2 i) (hinb1_2 i)).WholeWords (EltTy.packing .f32)

variable [Facts₀]

def dot_S8000x128_S128x256_S8000x256_1_0_0_1_n_n : DotDims S8000x128 S128x256 S8000x256 where
  lhsContracting := [1]
  rhsContracting := [0]
  lhsNonContracting := [0]
  rhsNonContracting := [1]
  lhsBatch := []
  rhsBatch := []
  wf := dot_S8000x128_S128x256_S8000x256_1_0_0_1_n_n_wf
def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S300000x256_S600000x1_S600000x256_1_0_0_1 : ScatterDims S300000x256 S600000x1 S600000x256 where
  updateWindowDims := [1]
  insertedWindowDims := [0]
  scatterDimsToOperandDims := [0]
  indexVectorDim := 1
  wf := scatter_S300000x256_S600000x1_S600000x256_1_0_0_1_wf
def dot_S6000x256_S256x128_S6000x128_1_0_0_1_n_n : DotDims S6000x256 S256x128 S6000x128 where
  lhsContracting := [1]
  rhsContracting := [0]
  lhsNonContracting := [0]
  rhsNonContracting := [1]
  lhsBatch := []
  rhsBatch := []
  wf := dot_S6000x256_S256x128_S6000x128_1_0_0_1_n_n_wf
def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf

abbrev win0_0 : Pipeline.Window sig grid0 :=
  Pipeline.Window.ofSpec (Memref.whole main_v0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S6000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S6000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S600000 : Shape := ⟨1, ![600000]⟩
abbrev S128x256 : Shape := ⟨2, ![128, 256]⟩
abbrev S256x128 : Shape := ⟨2, ![256, 128]⟩
abbrev S200000x256 : Shape := ⟨2, ![200000, 256]⟩
abbrev S600000x1 : Shape := ⟨2, ![600000, 1]⟩
abbrev S_ : Shape := ⟨0, ![]⟩
abbrev S600000x256 : Shape := ⟨2, ![600000, 256]⟩
abbrev S300000x256 : Shape := ⟨2, ![300000, 256]⟩
abbrev S300000x128 : Shape := ⟨2, ![300000, 128]⟩
abbrev S600000x128 : Shape := ⟨2, ![600000, 128]⟩

abbrev nBuf : Space → Nat
  | .hbm => 56
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x256, .f32⟩
  | .hbm, ⟨5, _⟩ => ⟨S256x128, .f32⟩
  | .hbm, ⟨6, _⟩ => ⟨S200000x256, .f32⟩
  | .hbm, ⟨7, _⟩ => ⟨S600000x1, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x256, .f32⟩
  | .hbm, ⟨17, _⟩ => ⟨S600000x256, .f32⟩
  | .hbm, ⟨18, _⟩ => ⟨S600000x256, .f32⟩
  | .hbm, ⟨19, _⟩ => ⟨S_, .f32⟩
  | .hbm, ⟨20, _⟩ => ⟨S300000x256, .f32⟩
  | .hbm, ⟨21, _⟩ => ⟨S600000x1, .i32⟩
  | .hbm, ⟨22, _⟩ => ⟨S300000x256, .f32⟩
  | .hbm, ⟨23, _⟩ => ⟨S300000x256, .f32⟩
  | .hbm, ⟨24, _⟩ => ⟨S300000x256, .f32⟩
  | .hbm, ⟨25, _⟩ => ⟨S_, .f32⟩
  | .hbm, ⟨26, _⟩ => ⟨S300000x256, .f32⟩
  | .hbm, ⟨27, _⟩ => ⟨S300000x256, .f32⟩
  | .hbm, ⟨28, _⟩ => ⟨S_, .f32⟩
  | .hbm, ⟨29, _⟩ => ⟨S300000x256, .f32⟩
  | .hbm, ⟨30, _⟩ => ⟨S300000x256, .f32⟩
  | .hbm, ⟨31, _⟩ => ⟨S300000x128, .f32⟩
  | .hbm, ⟨32, _⟩ => ⟨S600000x1, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S600000x128, .f32⟩
  | .hbm, ⟨43, _⟩ => ⟨S600000x128, .f32⟩
  | .hbm, ⟨44, _⟩ => ⟨S_, .f32⟩
  | .hbm, ⟨45, _⟩ => ⟨S200000x128, .f32⟩
  | .hbm, ⟨46, _⟩ => ⟨S600000x1, .i32⟩
  | .hbm, ⟨47, _⟩ => ⟨S200000x128, .f32⟩
  | .hbm, ⟨48, _⟩ => ⟨S200000x128, .f32⟩
  | .hbm, ⟨49, _⟩ => ⟨S200000x128, .f32⟩
  | .hbm, ⟨50, _⟩ => ⟨S_, .f32⟩
  | .hbm, ⟨51, _⟩ => ⟨S200000x128, .f32⟩
  | .hbm, ⟨52, _⟩ => ⟨S200000x128, .f32⟩
  | .hbm, ⟨53, _⟩ => ⟨S_, .f32⟩
  | .hbm, ⟨54, _⟩ => ⟨S200000x128, .f32⟩
  | .hbm, ⟨55, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x256_0_1 : S600000x1.BroadcastsInDim S600000x256 (![0, 1] : Fin 2 → Fin S600000x256.rank)
  bcast_S_S300000x256 : S_.BroadcastsInDim S300000x256 (![] : Fin 0 → Fin S300000x256.rank)
  bcast_S600000x1_S600000x128_0_1 : S600000x1.BroadcastsInDim S600000x128 (![0, 1] : Fin 2 → Fin S600000x128.rank)
  bcast_S_S200000x128 : S_.BroadcastsInDim S200000x128 (![] : Fin 0 → Fin S200000x128.rank)
  dot_S200000x128_S128x256_S200000x256_1_0_0_1_n_n_wf : DotDims.WF S200000x128 S128x256 S200000x256 [1] [0] [0] [1] [] []
  gather_S200000x256_S600000x1_S600000x256_1_0_n_n_0_1_1256_wf : GatherDims.WF S200000x256 S600000x1 S600000x256 [1] [0] [] [0] [] 1 ![1, 256]
  scatter_S300000x256_S600000x1_S600000x256_1_0_0_1_wf : ScatterDims.WF S300000x256 S600000x1 S600000x256 [1] [0] [0] 1
  dot_S300000x256_S256x128_S300000x128_1_0_0_1_n_n_wf : DotDims.WF S300000x256 S256x128 S300000x128 [1] [0] [0] [1] [] []
  gather_S300000x128_S600000x1_S600000x128_1_0_n_n_0_1_1128_wf : GatherDims.WF S300000x128 S600000x1 S600000x128 [1] [0] [] [0] [] 1 ![1, 128]
  scatter_S200000x128_S600000x1_S600000x128_1_0_0_1_wf : ScatterDims.WF S200000x128 S600000x1 S600000x128 [1] [0] [0] 1

variable [Facts₀]

def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S300000x256_S600000x1_S600000x256_1_0_0_1 : ScatterDims S300000x256 S600000x1 S600000x256 where
  updateWindowDims := [1]
  insertedWindowDims := [0]
  scatterDimsToOperandDims := [0]
  indexVectorDim := 1
  wf := scatter_S300000x256_S600000x1_S600000x256_1_0_0_1_wf
def dot_S300000x256_S256x128_S300000x128_1_0_0_1_n_n : DotDims S300000x256 S256x128 S300000x128 where
  lhsContracting := [1]
  rhsContracting := [0]
  lhsNonContracting := [0]
  rhsNonContracting := [1]
  lhsBatch := []
  rhsBatch := []
  wf := dot_S300000x256_S256x128_S300000x128_1_0_0_1_n_n_wf
def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf

class Facts : Prop extends Facts₀ where

variable [Facts]
-- ==== Proof.Stages.lean ====
/-
  The two message-passing stages, named once, and the reference's result through them.

  Both programs push features through the same two stages. A stage takes an array of feature rows, a list of
  600000 (target, source, weight) triples, and returns the logistic function of the weighted scatter-sum:
      out(e, ·) = 1 / (1 + exp(−Σ_{p : target(p) = e} weight(p) · in(source(p), ·)))
  (a negative source index is first wrapped by the source extent, as the lowering of `x[idx]` does). The first stage
  goes from the 200000 face rows of width 256 to the 300000 edge rows; the second from the 300000 edge rows of width
  128 back to the 200000 face rows. Between and before them sits a matrix product. The reference's result is
      toFaces ((toEdges (x · W1)) · W2),
  and this is exactly the term its run ends at, with the two stages folded into names.
-/
import proofs.«173020_j2516850835707_1_alg».proof.Proof.Gen.ReferenceIdeal.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Faces to edges: rows of `A` picked by `source` (wrapped by 200000 when negative), scaled by `weight`, summed into
    the rows `target` names, then the logistic function entry by entry. -/
def toEdges (A : (⟨S200000x256, .f32⟩ : BufTy).Contents (Elt F)) (target source : (⟨S600000, .i32⟩ : BufTy).Contents (Elt F))
    (weight : (⟨S600000, .f32⟩ : BufTy).Contents (Elt F)) : (⟨S300000x256, .f32⟩ : BufTy).Contents (Elt F) :=
  Host.divf (broadcastInDim S300000x256 ![] bcast_S_S300000x256 (constant S_ .f32 0x3F800000#32)) (addf (broadcastInDim S300000x256 ![] bcast_S_S300000x256 (constant S_ .f32 0x3F800000#32)) (Host.exp (Host.negf (Host.scatterAdd scatter_S300000x256_S600000x1_S600000x256_1_0_0_1 (broadcastInDim S300000x256 ![] bcast_S_S300000x256 (constant S_ .f32 0x00000000#32)) (broadcastInDim S600000x1 ![0] bcast_S600000_S600000x1_0 target) (mulf (broadcastInDim S600000x256 ![0, 1] bcast_S600000x1_S600000x256_0_1 (broadcastInDim S600000x1 ![0] bcast_S600000_S600000x1_0 weight)) (Host.gather gather_S200000x256_S600000x1_S600000x256_1_0_n_n_0_1_1256 A (broadcastInDim S600000x1 ![0] bcast_S600000_S600000x1_0 (select (cmpi .slt source (broadcastInDim S600000 ![] bcast_S_S600000 (constantI S_ 32 0#32))) (addi source (broadcastInDim S600000 ![] bcast_S_S600000 (constantI S_ 32 200000#32))) source))))))))

/-- Edges to faces: rows of `B` picked by `source` (wrapped by 300000 when negative), scaled by `weight`, summed into
    the rows `target` names, then the logistic function entry by entry. -/
def toFaces (B : (⟨S300000x128, .f32⟩ : BufTy).Contents (Elt F)) (target source : (⟨S600000, .i32⟩ : BufTy).Contents (Elt F))
    (weight : (⟨S600000, .f32⟩ : BufTy).Contents (Elt F)) : (⟨S200000x128, .f32⟩ : BufTy).Contents (Elt F) :=
  Host.divf (broadcastInDim S200000x128 ![] bcast_S_S200000x128 (constant S_ .f32 0x3F800000#32)) (addf (broadcastInDim S200000x128 ![] bcast_S_S200000x128 (constant S_ .f32 0x3F800000#32)) (Host.exp (Host.negf (Host.scatterAdd scatter_S200000x128_S600000x1_S600000x128_1_0_0_1 (broadcastInDim S200000x128 ![] bcast_S_S200000x128 (constant S_ .f32 0x00000000#32)) (broadcastInDim S600000x1 ![0] bcast_S600000_S600000x1_0 target) (mulf (broadcastInDim S600000x128 ![0, 1] bcast_S600000x1_S600000x128_0_1 (broadcastInDim S600000x1 ![0] bcast_S600000_S600000x1_0 weight)) (Host.gather gather_S300000x128_S600000x1_S600000x128_1_0_n_n_0_1_1128 B (broadcastInDim S600000x1 ![0] bcast_S600000_S600000x1_0 (select (cmpi .slt source (broadcastInDim S600000 ![] bcast_S_S600000 (constantI S_ 32 0#32))) (addi source (broadcastInDim S600000 ![] bcast_S_S600000 (constantI S_ 32 300000#32))) source))))))))

/-- The whole computation as the reference spells it: product with `W1`, to the edges, product with `W2`, back to the
    faces. `rows` names edges and `cols` names faces, so the first stage sums into `rows` from `cols` and the second
    the other way round. -/
def result (x : (⟨S200000x128, .f32⟩ : BufTy).Contents (Elt F)) (rows cols : (⟨S600000, .i32⟩ : BufTy).Contents (Elt F))
    (vals : (⟨S600000, .f32⟩ : BufTy).Contents (Elt F)) (W1 : (⟨S128x256, .f32⟩ : BufTy).Contents (Elt F))
    (W2 : (⟨S256x128, .f32⟩ : BufTy).Contents (Elt F)) : (⟨S200000x128, .f32⟩ : BufTy).Contents (Elt F) :=
  toFaces (Host.dotGeneral dot_S300000x256_S256x128_S300000x128_1_0_0_1_n_n none
      (toEdges (Host.dotGeneral dot_S200000x128_S128x256_S200000x256_1_0_0_1_n_n none x W1) rows cols vals) W2)
    cols rows vals

/-- The reference's run: every weakly fair execution terminates with the result buffer at `result` of the arguments'
    launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run m ρ

end Cert.ReferenceIdeal.Stages

end
-- ==== Proof.KernelRun.lean ====
/-
  The idealized kernel program, run from launch to return, with every buffer it leaves named.

  The program is five stretches in a row: host operations, the first product's grid of tiles, host operations, the
  second product's grid of tiles, host operations. The contents of the device's buffers at the four boundaries and
  at the end are a fold from the launch memory; here the run is restated so that its final memory is known at
  EVERY buffer, not only at the arguments: each buffer ends holding the last boundary's contents. The result buffer
  is one of them, the six arguments are six more (and those read back to the launch memory).
-/
import proofs.«173020_j2516850835707_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and every buffer that lives for the whole program ends
    holding the contents the fold through the five stretches gives it. -/
theorem run_every_buffer : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The same run, read at the result buffer and at the six arguments: the result ends at the last boundary's contents
    of its buffer, the arguments as launched. -/
theorem run_result : θ_run defs (onTc (τ := τ) (main (F := F))) ⟨m, fun _ => 0, ρ⟩ (fun r => ∀ c : Dev nD,
      r.2.mem ((c.tc : Thread nD τ).loc main_v43) = W5 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v43 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)
    (run_every_buffer m ρ)

end Cert.KernelIdeal.Whole

end
-- ==== Proof.TileProduct.lean ====
/-
  One tile of each matrix product, read at an entry.

  Each of the two kernels multiplies a tile of rows of its left operand by the whole right operand into a zero
  accumulator. Over the extended reals that product, at entry (r, n) of the tile, is the sum over the depth k of
  (left tile)(r, k) * (right operand)(k, n): the accumulator contributes the zero word, and the sum over the
  one-axis contraction index is the sum over its single coordinate.
-/
import proofs.«173020_j2516850835707_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic

/-! ## First product: tiles of 8000 rows, depth 128, 256 columns -/

/-- Entry (r, k) of the left tile, for the output entry `j = (r, n)`. -/
abbrev lhsAt0 (j : S8000x256.Idx) (k : Fin 128) : S8000x128.Idx := fun a => match a with
  | ⟨0, _⟩ => ⟨(j 0).val, (j 0).isLt⟩
  | ⟨1, _⟩ => ⟨k.val, k.isLt⟩
/-- Entry (k, n) of the right operand, for the output entry `j = (r, n)`. -/
abbrev rhsAt0 (j : S8000x256.Idx) (k : Fin 128) : S128x256.Idx := fun a => match a with
  | ⟨0, _⟩ => ⟨k.val, k.isLt⟩
  | ⟨1, _⟩ => ⟨(j 1).val, (j 1).isLt⟩

theorem lhs0_row (j : S8000x256.Idx) (q : dot_S8000x128_S128x256_S8000x256_1_0_0_1_n_n.contr.Idx) :
    (dot_S8000x128_S128x256_S8000x256_1_0_0_1_n_n.lhsIdx j q 0).val = (j 0).val := by
  unfold DotDims.lhsIdx
  rw [dif_neg (show ¬(0 : Fin S8000x128.rank) ∈ dot_S8000x128_S128x256_S8000x256_1_0_0_1_n_n.lhsBatch by decide), dif_pos (show (0 : Fin S8000x128.rank) ∈ dot_S8000x128_S128x256_S8000x256_1_0_0_1_n_n.lhsNonContracting by decide)]
  rfl
theorem lhs0_depth (j : S8000x256.Idx) (q : dot_S8000x128_S128x256_S8000x256_1_0_0_1_n_n.contr.Idx) :
    (dot_S8000x128_S128x256_S8000x256_1_0_0_1_n_n.lhsIdx j q 1).val = (q ⟨0, by decide⟩).val :=
  dot_S8000x128_S128x256_S8000x256_1_0_0_1_n_n.lhsIdx_val_of_single rfl j q
theorem rhs0_depth (j : S8000x256.Idx) (q : dot_S8000x128_S128x256_S8000x256_1_0_0_1_n_n.contr.Idx) :
    (dot_S8000x128_S128x256_S8000x256_1_0_0_1_n_n.rhsIdx j q 0).val = (q ⟨0, by decide⟩).val :=
  dot_S8000x128_S128x256_S8000x256_1_0_0_1_n_n.rhsIdx_val_of_single rfl j q
theorem rhs0_col (j : S8000x256.Idx) (q : dot_S8000x128_S128x256_S8000x256_1_0_0_1_n_n.contr.Idx) :
    (dot_S8000x128_S128x256_S8000x256_1_0_0_1_n_n.rhsIdx j q 1).val = (j 1).val := by
  unfold DotDims.rhsIdx
  rw [dif_neg (show ¬(1 : Fin S128x256.rank) ∈ dot_S8000x128_S128x256_S8000x256_1_0_0_1_n_n.rhsBatch by decide), dif_pos (show (1 : Fin S128x256.rank) ∈ dot_S8000x128_S128x256_S8000x256_1_0_0_1_n_n.rhsNonContracting by decide)]
  rfl

/-- The first kernel's stored value at entry `j`: the depth-128 sum of products. -/
theorem product0_apply (x : FVec Ideal S8000x128 .bf16) (w : FVec Ideal S128x256 .bf16) (j : S8000x256.Idx) :
    k0_pay1 (F := Ideal) x w j = ∑ k : Fin 128, x (lhsAt0 j k) * w (rhsAt0 j k) := by
  unfold k0_pay1
  rw [shapeCast_self, shapeCast_self]
  simp only [matmul]
  rw [Ideal.matmul_constant_zero_apply, ← Equiv.sum_comp (ValueIdx.contrEquiv1 dot_S8000x128_S128x256_S8000x256_1_0_0_1_n_n 128 rfl rfl).symm]
  refine Finset.sum_congr rfl fun k _ => ?_
  have hk := ValueIdx.contrEquiv1_symm_val dot_S8000x128_S128x256_S8000x256_1_0_0_1_n_n 128 rfl rfl k
  have el : dot_S8000x128_S128x256_S8000x256_1_0_0_1_n_n.lhsIdx j ((ValueIdx.contrEquiv1 dot_S8000x128_S128x256_S8000x256_1_0_0_1_n_n 128 rfl rfl).symm k) = lhsAt0 j k := funext fun a => Fin.ext (by
    match a with
    | ⟨0, _⟩ => exact lhs0_row _ _
    | ⟨1, _⟩ => exact (lhs0_depth _ _).trans hk)
  have er : dot_S8000x128_S128x256_S8000x256_1_0_0_1_n_n.rhsIdx j ((ValueIdx.contrEquiv1 dot_S8000x128_S128x256_S8000x256_1_0_0_1_n_n 128 rfl rfl).symm k) = rhsAt0 j k := funext fun a => Fin.ext (by
    match a with
    | ⟨0, _⟩ => exact (rhs0_depth _ _).trans hk
    | ⟨1, _⟩ => exact rhs0_col _ _)
  rw [el, er]

/-! ## Second product: tiles of 6000 rows, depth 256, 128 columns -/

/-- Entry (r, k) of the left tile, for the output entry `j = (r, n)`. -/
abbrev lhsAt1 (j : S6000x128.Idx) (k : Fin 256) : S6000x256.Idx := fun a => match a with
  | ⟨0, _⟩ => ⟨(j 0).val, (j 0).isLt⟩
  | ⟨1, _⟩ => ⟨k.val, k.isLt⟩
/-- Entry (k, n) of the right operand, for the output entry `j = (r, n)`. -/
abbrev rhsAt1 (j : S6000x128.Idx) (k : Fin 256) : S256x128.Idx := fun a => match a with
  | ⟨0, _⟩ => ⟨k.val, k.isLt⟩
  | ⟨1, _⟩ => ⟨(j 1).val, (j 1).isLt⟩

theorem lhs1_row (j : S6000x128.Idx) (q : dot_S6000x256_S256x128_S6000x128_1_0_0_1_n_n.contr.Idx) :
    (dot_S6000x256_S256x128_S6000x128_1_0_0_1_n_n.lhsIdx j q 0).val = (j 0).val := by
  unfold DotDims.lhsIdx
  rw [dif_neg (show ¬(0 : Fin S6000x256.rank) ∈ dot_S6000x256_S256x128_S6000x128_1_0_0_1_n_n.lhsBatch by decide), dif_pos (show (0 : Fin S6000x256.rank) ∈ dot_S6000x256_S256x128_S6000x128_1_0_0_1_n_n.lhsNonContracting by decide)]
  rfl
theorem lhs1_depth (j : S6000x128.Idx) (q : dot_S6000x256_S256x128_S6000x128_1_0_0_1_n_n.contr.Idx) :
    (dot_S6000x256_S256x128_S6000x128_1_0_0_1_n_n.lhsIdx j q 1).val = (q ⟨0, by decide⟩).val :=
  dot_S6000x256_S256x128_S6000x128_1_0_0_1_n_n.lhsIdx_val_of_single rfl j q
theorem rhs1_depth (j : S6000x128.Idx) (q : dot_S6000x256_S256x128_S6000x128_1_0_0_1_n_n.contr.Idx) :
    (dot_S6000x256_S256x128_S6000x128_1_0_0_1_n_n.rhsIdx j q 0).val = (q ⟨0, by decide⟩).val :=
  dot_S6000x256_S256x128_S6000x128_1_0_0_1_n_n.rhsIdx_val_of_single rfl j q
theorem rhs1_col (j : S6000x128.Idx) (q : dot_S6000x256_S256x128_S6000x128_1_0_0_1_n_n.contr.Idx) :
    (dot_S6000x256_S256x128_S6000x128_1_0_0_1_n_n.rhsIdx j q 1).val = (j 1).val := by
  unfold DotDims.rhsIdx
  rw [dif_neg (show ¬(1 : Fin S256x128.rank) ∈ dot_S6000x256_S256x128_S6000x128_1_0_0_1_n_n.rhsBatch by decide), dif_pos (show (1 : Fin S256x128.rank) ∈ dot_S6000x256_S256x128_S6000x128_1_0_0_1_n_n.rhsNonContracting by decide)]
  rfl

/-- The second kernel's stored value at entry `j`: the depth-256 sum of products. -/
theorem product1_apply (x : FVec Ideal S6000x256 .bf16) (w : FVec Ideal S256x128 .bf16) (j : S6000x128.Idx) :
    k1_pay1 (F := Ideal) x w j = ∑ k : Fin 256, x (lhsAt1 j k) * w (rhsAt1 j k) := by
  unfold k1_pay1
  rw [shapeCast_self, shapeCast_self]
  simp only [matmul]
  rw [Ideal.matmul_constant_zero_apply, ← Equiv.sum_comp (ValueIdx.contrEquiv1 dot_S6000x256_S256x128_S6000x128_1_0_0_1_n_n 256 rfl rfl).symm]
  refine Finset.sum_congr rfl fun k _ => ?_
  have hk := ValueIdx.contrEquiv1_symm_val dot_S6000x256_S256x128_S6000x128_1_0_0_1_n_n 256 rfl rfl k
  have el : dot_S6000x256_S256x128_S6000x128_1_0_0_1_n_n.lhsIdx j ((ValueIdx.contrEquiv1 dot_S6000x256_S256x128_S6000x128_1_0_0_1_n_n 256 rfl rfl).symm k) = lhsAt1 j k := funext fun a => Fin.ext (by
    match a with
    | ⟨0, _⟩ => exact lhs1_row _ _
    | ⟨1, _⟩ => exact (lhs1_depth _ _).trans hk)
  have er : dot_S6000x256_S256x128_S6000x128_1_0_0_1_n_n.rhsIdx j ((ValueIdx.contrEquiv1 dot_S6000x256_S256x128_S6000x128_1_0_0_1_n_n 256 rfl rfl).symm k) = rhsAt1 j k := funext fun a => Fin.ext (by
    match a with
    | ⟨0, _⟩ => exact (rhs1_depth _ _).trans hk
    | ⟨1, _⟩ => exact rhs1_col _ _)
  rw [el, er]

end Cert.KernelIdeal.Tile

end
-- ==== Proof.FirstProduct.lean ====
/-
  The first product over its grid: what the result array holds when the region is left.

  The grid runs 25 points; point t multiplies rows 8000·t … 8000·t + 7999 of the left operand (a tile of 8000 rows, the
  whole depth 128) by the whole right operand and writes the 8000 × 256 tile back to the same rows of the result.
  So every tile written back is the restriction to its rows of ONE function of the two operands as the region
  finds them, the full product
      P(r, n) = Σ_k left(r, k) · right(k, n),
  and the tiles cover every row: the result array ends holding P. Nothing here looks at what the operands are;
  they are whatever the device's buffers hold when the region is entered.
-/
import proofs.«173020_j2516850835707_1_alg».proof.Proof.Gen.KernelIdeal.Frame
import proofs.«173020_j2516850835707_1_alg».proof.Proof.TileProduct
import Idealize.ShloMosaic.Lib.Pipeline.Value
import Idealize.ShloMosaic.Lib.ValueIdx

set_option maxRecDepth 16384

noncomputable section

open scoped BigOperators

namespace Cert.KernelIdeal.First

open Cert.KernelIdeal Cert.KernelIdeal.Gen Cert.KernelIdeal.Tile
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Entry (r, k) of the left operand, for the result entry `i = (r, n)`. -/
abbrev lhsAt (i : S200000x256.Idx) (k : Fin 128) : S200000x128.Idx := fun a => match a with
  | ⟨0, _⟩ => ⟨(i 0).val, (i 0).isLt⟩
  | ⟨1, _⟩ => ⟨k.val, k.isLt⟩
/-- Entry (k, n) of the right operand, for the result entry `i = (r, n)`. -/
abbrev rhsAt (i : S200000x256.Idx) (k : Fin 128) : S128x256.Idx := fun a => match a with
  | ⟨0, _⟩ => ⟨k.val, k.isLt⟩
  | ⟨1, _⟩ => ⟨(i 1).val, (i 1).isLt⟩

/-- The full product of the two operands over the extended reals, entry by entry. -/
def product (x : FVec Ideal S200000x128 .bf16) (w : FVec Ideal S128x256 .bf16) : FVec Ideal S200000x256 .f32 :=
  fun i => ∑ k : Fin 128, x (lhsAt i k) * w (rhsAt i k)

theorem zero_offsets : (![0, 0] : Fin 2 → Nat) = fun _ => 0 := funext fun a => by fin_cases a <;> rfl

/-- The three index maps over the grid: the left operand's and the result's tiles move down with the point, the right
    operand's stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left tile at point `t` is rows 8000·t … of the left operand. -/
theorem left_tile (c : Dev nD) (t : Fin cfg0.N) (y : S8000x128.Idx) (i : S200000x128.Idx)
    (h0 : (i 0).val = t.val * 8000 + (y 0).val) (h1 : (i 1).val = (y 1).val) :
    (iblk0 V c 0 t : Vec Ideal S8000x128 .bf16) y = (V c main_v0 : S200000x128.Idx → Elt Ideal .bf16) i := by
  obtain ⟨e0, e1, -, -, -, -⟩ := index_maps t
  unfold iblk0
  rw [View.read_apply]
  show V c main_v0 _ = V c main_v0 _
  refine congrArg (V c main_v0) ?_
  funext a; apply Fin.ext
  match a with
  | ⟨0, _⟩ => show win0_0.index t (0 : Fin 2) * 8000 + 1 * (y 0).val = (i 0).val; rw [e0, h0]; omega
  | ⟨1, _⟩ => show win0_0.index t (1 : Fin 2) * 128 + 1 * (y 1).val = (i 1).val; rw [e1, h1]; omega

/-- The right tile at every point is the whole right operand. -/
theorem right_tile (c : Dev nD) (t : Fin cfg0.N) (y : S128x256.Idx) :
    (iblk0 V c 1 t : Vec Ideal S128x256 .bf16) y = (V c main_v1 : S128x256.Idx → Elt Ideal .bf16) y := by
  obtain ⟨-, -, e2, e3, -, -⟩ := index_maps t
  unfold iblk0
  rw [View.read_apply]
  show V c main_v1 _ = V c main_v1 _
  refine congrArg (V c main_v1) ?_
  funext a; apply Fin.ext
  match a with
  | ⟨0, _⟩ => show win0_1.index t (0 : Fin 2) * 128 + 1 * (y 0).val = (y 0).val; rw [e2]; omega
  | ⟨1, _⟩ => show win0_1.index t (1 : Fin 2) * 256 + 1 * (y 1).val = (y 1).val; rw [e3]; omega

/-- A tile product is the full product on the tile's rows: for ANY tile `xt` that is rows `T`·8000 … of `x` and
    right tile `wt` that is `w`. -/
theorem tile_product (x : FVec Ideal S200000x128 .bf16) (w : FVec Ideal S128x256 .bf16)
    (xt : FVec Ideal S8000x128 .bf16) (wt : FVec Ideal S128x256 .bf16) (T : Nat)
    (hx : ∀ (y : S8000x128.Idx) (i : S200000x128.Idx), (i 0).val = T * 8000 + (y 0).val → (i 1).val = (y 1).val → xt y = x i)
    (hw : ∀ y : S128x256.Idx, wt y = w y)
    (j : S8000x256.Idx) (i : S200000x256.Idx) (hi0 : (i 0).val = T * 8000 + (j 0).val) (hi1 : (i 1).val = (j 1).val) :
    k0_pay1 (F := Ideal) xt wt j = product x w i := by
  refine (product0_apply xt wt j).trans ?_
  unfold product
  refine Finset.sum_congr rfl fun k _ => ?_
  rw [hx (lhsAt0 j k) (lhsAt i k) hi0 rfl, hw (rhsAt0 j k)]
  refine congrArg (fun z => x (lhsAt i k) * w z) ?_
  funext a; apply Fin.ext
  match a with
  | ⟨0, _⟩ => rfl
  | ⟨1, _⟩ => exact hi1.symm

/-- What point `t` writes back is tile `t` of the full product of the operands as the region finds them. -/
theorem flushed_eq (c : Dev nD) (t : Fin cfg0.N) :
    (dat0 V c).flushed 2 t = ((cfg0.win 2).blk t).view.read (Elt Ideal) (product (V c main_v0) (V c main_v1)) := by
  show (cfg0.win 2).cut (grid0.coords t) ((dat0 V c).after 2 t) = _
  rw [after0_2]
  unfold out0_2
  rw [View.canon_unit_zero zero_offsets]
  simp only [View.ld_unit_zero (S := S8000x128) zero_offsets, View.ld_unit_zero (S := S128x256) zero_offsets]
  obtain ⟨-, -, -, -, e4, e5⟩ := index_maps t
  funext j
  show k0_pay1 (F := Ideal) (iblk0 V c 0 t) (iblk0 V c 1 t) j = product (V c main_v0) (V c main_v1) (((cfg0.win 2).blk t).view.emb j)
  refine tile_product (V c main_v0) (V c main_v1) (iblk0 V c 0 t) (iblk0 V c 1 t) t.val
    (fun y i h0 h1 => left_tile V c t y i h0 h1) (fun y => right_tile V c t y) j _ ?_ ?_
  · show win0_2.index t (0 : Fin 2) * 8000 + 1 * (j 0).val = t.val * 8000 + (j 0).val; rw [e4]; omega
  · show win0_2.index t (1 : Fin 2) * 256 + 1 * (j 1).val = (j 1).val; rw [e5]; omega

/-- An entry of the result is in point `t`'s tile iff each coordinate is in the tile's range. -/
theorem mem_tile (t : Fin cfg0.N) (i : S200000x256.Idx) :
    i ∈ ((cfg0.win 2).blk t).view.set ↔ ∀ a : Fin 2, win0_2.index t a * S8000x256.size a ≤ (i a).val ∧ (i a).val < win0_2.index t a * S8000x256.size a + S8000x256.size a := by
  show i ∈ ((View.whole main_v2).slice (win0_2.rect t)).set ↔ _
  rw [View.set_slice_whole, Rect.mem_set_unit]
  exact Iff.rfl

/-- Every entry (r, n) of the result is in the tile of point r / 8000, and every point writes its tile back. -/
theorem covered (i : S200000x256.Idx) : ∃ t : Fin cfg0.N, (cfg0.win 2).flush t = true ∧ i ∈ ((cfg0.win 2).blk t).view.set := by
  have h0 : (i 0).val < 200000 := ValueIdx.idx2_lt0 i
  have h1 : (i 1).val < 256 := ValueIdx.idx2_lt1 i
  have hN : cfg0.N = 25 := N_0
  have ht : (i 0).val / 8000 < cfg0.N := by rw [hN]; omega
  refine ⟨⟨(i 0).val / 8000, ht⟩, flush0_2 _, ?_⟩
  rw [mem_tile]
  obtain ⟨-, -, -, -, e4, e5⟩ := index_maps ⟨(i 0).val / 8000, ht⟩
  intro a
  match a with
  | ⟨0, _⟩ =>
    show win0_2.index ⟨(i 0).val / 8000, ht⟩ (0 : Fin 2) * 8000 ≤ (i 0).val ∧ (i 0).val < win0_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win0_2.index ⟨(i 0).val / 8000, ht⟩ (1 : Fin 2) * 256 ≤ (i 1).val ∧ (i 1).val < win0_2.index ⟨(i 0).val / 8000, ht⟩ (1 : Fin 2) * 256 + 256
    rw [e5]; omega

/-- The result array after the region: the full product of the two operands as the region finds them. -/
theorem array_eq (c : Dev nD) : (dat0 V c).arrAt 2 cfg0.N = product (V c main_v0) (V c main_v1) :=
  (dat0 V c).arrAt_eq_of_cover 2 (product (V c main_v0) (V c main_v1)) (fun t _ => flushed_eq V c t) covered

end Cert.KernelIdeal.First

end
-- ==== Proof.SecondProduct.lean ====
/-
  The second product over its grid: what the result array holds when the region is left.

  The grid runs 50 points; point t multiplies rows 6000·t … 6000·t + 5999 of the left operand (a tile of 6000 rows, the
  whole depth 256) by the whole right operand and writes the 6000 × 128 tile back to the same rows of the result.
  So every tile written back is the restriction to its rows of ONE function of the two operands as the region
  finds them, the full product
      P(r, n) = Σ_k left(r, k) · right(k, n),
  and the tiles cover every row: the result array ends holding P. Nothing here looks at what the operands are;
  they are whatever the device's buffers hold when the region is entered.
-/
import proofs.«173020_j2516850835707_1_alg».proof.Proof.Gen.KernelIdeal.Frame
import proofs.«173020_j2516850835707_1_alg».proof.Proof.TileProduct
import Idealize.ShloMosaic.Lib.Pipeline.Value
import Idealize.ShloMosaic.Lib.ValueIdx

set_option maxRecDepth 16384

noncomputable section

open scoped BigOperators

namespace Cert.KernelIdeal.Second

open Cert.KernelIdeal Cert.KernelIdeal.Gen Cert.KernelIdeal.Tile
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Entry (r, k) of the left operand, for the result entry `i = (r, n)`. -/
abbrev lhsAt (i : S300000x128.Idx) (k : Fin 256) : S300000x256.Idx := fun a => match a with
  | ⟨0, _⟩ => ⟨(i 0).val, (i 0).isLt⟩
  | ⟨1, _⟩ => ⟨k.val, k.isLt⟩
/-- Entry (k, n) of the right operand, for the result entry `i = (r, n)`. -/
abbrev rhsAt (i : S300000x128.Idx) (k : Fin 256) : S256x128.Idx := fun a => match a with
  | ⟨0, _⟩ => ⟨k.val, k.isLt⟩
  | ⟨1, _⟩ => ⟨(i 1).val, (i 1).isLt⟩

/-- The full product of the two operands over the extended reals, entry by entry. -/
def product (x : FVec Ideal S300000x256 .bf16) (w : FVec Ideal S256x128 .bf16) : FVec Ideal S300000x128 .f32 :=
  fun i => ∑ k : Fin 256, x (lhsAt i k) * w (rhsAt i k)

theorem zero_offsets : (![0, 0] : Fin 2 → Nat) = fun _ => 0 := funext fun a => by fin_cases a <;> rfl

/-- The three index maps over the grid: the left operand's and the result's tiles move down with the point, the right
    operand's stays. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left tile at point `t` is rows 6000·t … of the left operand. -/
theorem left_tile (c : Dev nD) (t : Fin cfg1.N) (y : S6000x256.Idx) (i : S300000x256.Idx)
    (h0 : (i 0).val = t.val * 6000 + (y 0).val) (h1 : (i 1).val = (y 1).val) :
    (iblk1 V c 0 t : Vec Ideal S6000x256 .bf16) y = (V c main_v22 : S300000x256.Idx → Elt Ideal .bf16) i := by
  obtain ⟨e0, e1, -, -, -, -⟩ := index_maps t
  unfold iblk1
  rw [View.read_apply]
  show V c main_v22 _ = V c main_v22 _
  refine congrArg (V c main_v22) ?_
  funext a; apply Fin.ext
  match a with
  | ⟨0, _⟩ => show win1_0.index t (0 : Fin 2) * 6000 + 1 * (y 0).val = (i 0).val; rw [e0, h0]; omega
  | ⟨1, _⟩ => show win1_0.index t (1 : Fin 2) * 256 + 1 * (y 1).val = (i 1).val; rw [e1, h1]; omega

/-- The right tile at every point is the whole right operand. -/
theorem right_tile (c : Dev nD) (t : Fin cfg1.N) (y : S256x128.Idx) :
    (iblk1 V c 1 t : Vec Ideal S256x128 .bf16) y = (V c main_v23 : S256x128.Idx → Elt Ideal .bf16) y := by
  obtain ⟨-, -, e2, e3, -, -⟩ := index_maps t
  unfold iblk1
  rw [View.read_apply]
  show V c main_v23 _ = V c main_v23 _
  refine congrArg (V c main_v23) ?_
  funext a; apply Fin.ext
  match a with
  | ⟨0, _⟩ => show win1_1.index t (0 : Fin 2) * 256 + 1 * (y 0).val = (y 0).val; rw [e2]; omega
  | ⟨1, _⟩ => show win1_1.index t (1 : Fin 2) * 128 + 1 * (y 1).val = (y 1).val; rw [e3]; omega

/-- A tile product is the full product on the tile's rows: for ANY tile `xt` that is rows `T`·6000 … of `x` and
    right tile `wt` that is `w`. -/
theorem tile_product (x : FVec Ideal S300000x256 .bf16) (w : FVec Ideal S256x128 .bf16)
    (xt : FVec Ideal S6000x256 .bf16) (wt : FVec Ideal S256x128 .bf16) (T : Nat)
    (hx : ∀ (y : S6000x256.Idx) (i : S300000x256.Idx), (i 0).val = T * 6000 + (y 0).val → (i 1).val = (y 1).val → xt y = x i)
    (hw : ∀ y : S256x128.Idx, wt y = w y)
    (j : S6000x128.Idx) (i : S300000x128.Idx) (hi0 : (i 0).val = T * 6000 + (j 0).val) (hi1 : (i 1).val = (j 1).val) :
    k1_pay1 (F := Ideal) xt wt j = product x w i := by
  refine (product1_apply xt wt j).trans ?_
  unfold product
  refine Finset.sum_congr rfl fun k _ => ?_
  rw [hx (lhsAt1 j k) (lhsAt i k) hi0 rfl, hw (rhsAt1 j k)]
  refine congrArg (fun z => x (lhsAt i k) * w z) ?_
  funext a; apply Fin.ext
  match a with
  | ⟨0, _⟩ => rfl
  | ⟨1, _⟩ => exact hi1.symm

/-- What point `t` writes back is tile `t` of the full product of the operands as the region finds them. -/
theorem flushed_eq (c : Dev nD) (t : Fin cfg1.N) :
    (dat1 V c).flushed 2 t = ((cfg1.win 2).blk t).view.read (Elt Ideal) (product (V c main_v22) (V c main_v23)) := by
  show (cfg1.win 2).cut (grid1.coords t) ((dat1 V c).after 2 t) = _
  rw [after1_2]
  unfold out1_2
  rw [View.canon_unit_zero zero_offsets]
  simp only [View.ld_unit_zero (S := S6000x256) zero_offsets, View.ld_unit_zero (S := S256x128) zero_offsets]
  obtain ⟨-, -, -, -, e4, e5⟩ := index_maps t
  funext j
  show k1_pay1 (F := Ideal) (iblk1 V c 0 t) (iblk1 V c 1 t) j = product (V c main_v22) (V c main_v23) (((cfg1.win 2).blk t).view.emb j)
  refine tile_product (V c main_v22) (V c main_v23) (iblk1 V c 0 t) (iblk1 V c 1 t) t.val
    (fun y i h0 h1 => left_tile V c t y i h0 h1) (fun y => right_tile V c t y) j _ ?_ ?_
  · show win1_2.index t (0 : Fin 2) * 6000 + 1 * (j 0).val = t.val * 6000 + (j 0).val; rw [e4]; omega
  · show win1_2.index t (1 : Fin 2) * 128 + 1 * (j 1).val = (j 1).val; rw [e5]; omega

/-- An entry of the result is in point `t`'s tile iff each coordinate is in the tile's range. -/
theorem mem_tile (t : Fin cfg1.N) (i : S300000x128.Idx) :
    i ∈ ((cfg1.win 2).blk t).view.set ↔ ∀ a : Fin 2, win1_2.index t a * S6000x128.size a ≤ (i a).val ∧ (i a).val < win1_2.index t a * S6000x128.size a + S6000x128.size a := by
  show i ∈ ((View.whole main_v24).slice (win1_2.rect t)).set ↔ _
  rw [View.set_slice_whole, Rect.mem_set_unit]
  exact Iff.rfl

/-- Every entry (r, n) of the result is in the tile of point r / 6000, and every point writes its tile back. -/
theorem covered (i : S300000x128.Idx) : ∃ t : Fin cfg1.N, (cfg1.win 2).flush t = true ∧ i ∈ ((cfg1.win 2).blk t).view.set := by
  have h0 : (i 0).val < 300000 := ValueIdx.idx2_lt0 i
  have h1 : (i 1).val < 128 := ValueIdx.idx2_lt1 i
  have hN : cfg1.N = 50 := N_1
  have ht : (i 0).val / 6000 < cfg1.N := by rw [hN]; omega
  refine ⟨⟨(i 0).val / 6000, ht⟩, flush1_2 _, ?_⟩
  rw [mem_tile]
  obtain ⟨-, -, -, -, e4, e5⟩ := index_maps ⟨(i 0).val / 6000, ht⟩
  intro a
  match a with
  | ⟨0, _⟩ =>
    show win1_2.index ⟨(i 0).val / 6000, ht⟩ (0 : Fin 2) * 6000 ≤ (i 0).val ∧ (i 0).val < win1_2.index ⟨(i 0).val / 6000, ht⟩ (0 : Fin 2) * 6000 + 6000
    rw [e4]; show (i 0).val / 6000 * 6000 ≤ (i 0).val ∧ (i 0).val < (i 0).val / 6000 * 6000 + 6000; omega
  | ⟨1, _⟩ =>
    show win1_2.index ⟨(i 0).val / 6000, ht⟩ (1 : Fin 2) * 128 ≤ (i 1).val ∧ (i 1).val < win1_2.index ⟨(i 0).val / 6000, ht⟩ (1 : Fin 2) * 128 + 128
    rw [e5]; omega

/-- The result array after the region: the full product of the two operands as the region finds them. -/
theorem array_eq (c : Dev nD) : (dat1 V c).arrAt 2 cfg1.N = product (V c main_v22) (V c main_v23) :=
  (dat1 V c).arrAt_eq_of_cover 2 (product (V c main_v22) (V c main_v23)) (fun t _ => flushed_eq V c t) covered

end Cert.KernelIdeal.Second

end
-- ==== Proof.HostStretches.lean ====
/-
  The three stretches of host operations of the idealized kernel program, each read as a function of the buffer
  contents it starts from.

  Over the extended reals a change of float format is the identity. So, from ANY contents of the device's buffers:
    * the first stretch leaves the face features and the first weight matrix, unchanged, as the operands of the first
      product;
    * the second stretch leaves the edges stage of the first product's result as the left operand of the second
      product and the second weight matrix as its right operand;
    * the third stretch leaves the faces stage of the second product's result in the result buffer.
  No stretch writes an argument. The stages are the reference's own two stages: the same operations on the same
  index and weight arrays, in the same order.
-/
import proofs.«173020_j2516850835707_1_alg».proof.Proof.Gen.KernelIdeal.Launch
import proofs.«173020_j2516850835707_1_alg».proof.Proof.Stages
import Idealize.ShloMosaic.Lib.StableHlo.Run
import Idealize.ShloMosaic.PureOps.Ideal

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable (Wv : Valuation τ sig (Elt Ideal))

/-- Over the extended reals a change of float format is the identity. -/
theorem narrow_id {s : Shape} (X : FVec Ideal s .f32) (h : FTy.bits .bf16 < FTy.bits .f32) :
    (truncf .bf16 X h : FVec Ideal s .bf16) = X := rfl

/-! ## The first stretch: two changes of format -/

theorem first_lhs : (StableHlo.after hostOps0 Wv (Proc.devRef .tc main_v0) : FVec Ideal S200000x128 .bf16)
    = (Wv (Proc.devRef .tc main_arg0) : FVec Ideal S200000x128 .f32) := by
  after_results
  rfl
theorem first_rhs : (StableHlo.after hostOps0 Wv (Proc.devRef .tc main_v1) : FVec Ideal S128x256 .bf16)
    = (Wv (Proc.devRef .tc main_arg4) : FVec Ideal S128x256 .f32) := by
  after_results
  rfl
theorem first_keeps_arg1 : StableHlo.after hostOps0 Wv (Proc.devRef .tc main_arg1) = Wv (Proc.devRef .tc main_arg1) := by
  after_results
theorem first_keeps_arg2 : StableHlo.after hostOps0 Wv (Proc.devRef .tc main_arg2) = Wv (Proc.devRef .tc main_arg2) := by
  after_results
theorem first_keeps_arg3 : StableHlo.after hostOps0 Wv (Proc.devRef .tc main_arg3) = Wv (Proc.devRef .tc main_arg3) := by
  after_results
theorem first_keeps_arg5 : StableHlo.after hostOps0 Wv (Proc.devRef .tc main_arg5) = Wv (Proc.devRef .tc main_arg5) := by
  after_results

/-! ## The second stretch: the edges stage, then two changes of format -/

set_option maxHeartbeats 2000000 in
theorem second_lhs : (StableHlo.after hostOps1 Wv (Proc.devRef .tc main_v22) : FVec Ideal S300000x256 .bf16)
    = Cert.ReferenceIdeal.Stages.toEdges (F := Ideal) (Wv (Proc.devRef .tc main_v2)) (Wv (Proc.devRef .tc main_arg1)) (Wv (Proc.devRef .tc main_arg2))
        (Wv (Proc.devRef .tc main_arg3)) := by
  after_results_simp
  refine (narrow_id _ _).trans ?_
  rfl
set_option maxHeartbeats 2000000 in
theorem second_rhs : (StableHlo.after hostOps1 Wv (Proc.devRef .tc main_v23) : FVec Ideal S256x128 .bf16)
    = (Wv (Proc.devRef .tc main_arg5) : FVec Ideal S256x128 .f32) := by
  after_results_simp
  rfl
set_option maxHeartbeats 2000000 in
theorem second_keeps_arg1 : StableHlo.after hostOps1 Wv (Proc.devRef .tc main_arg1) = Wv (Proc.devRef .tc main_arg1) := by
  after_results_simp
set_option maxHeartbeats 2000000 in
theorem second_keeps_arg2 : StableHlo.after hostOps1 Wv (Proc.devRef .tc main_arg2) = Wv (Proc.devRef .tc main_arg2) := by
  after_results_simp
set_option maxHeartbeats 2000000 in
theorem second_keeps_arg3 : StableHlo.after hostOps1 Wv (Proc.devRef .tc main_arg3) = Wv (Proc.devRef .tc main_arg3) := by
  after_results_simp

/-! ## The third stretch: the faces stage -/

set_option maxHeartbeats 2000000 in
theorem third_result : StableHlo.after hostOps2 Wv (Proc.devRef .tc main_v43)
    = Cert.ReferenceIdeal.Stages.toFaces (F := Ideal) (Wv (Proc.devRef .tc main_v24)) (Wv (Proc.devRef .tc main_arg2)) (Wv (Proc.devRef .tc main_arg1))
        (Wv (Proc.devRef .tc main_arg3)) := by
  after_results_simp
  rfl

end Cert.KernelIdeal.Stretch

end
-- ==== Proof.KernelValue.lean ====
/-
  The idealized kernel's result, followed through the five stretches of its program.

  Over the extended reals a change of float format is the identity, so the kernel's program computes
      faces stage ( (edges stage ( x · W1 )) · W2 )
  with the SAME two stages as the reference and with each matrix product done tile by tile on the device instead of
  at once on the host. The buffers' contents at the boundaries between the stretches are read one after the other:
    * after the first host stretch the two operands of the first product are `x` and `W1`;
    * the first grid leaves the full product `x · W1` (entry by entry the same sum over the depth as the host's);
    * the second host stretch applies the edges stage and leaves that and `W2` as the next operands;
    * the second grid leaves their full product;
    * the last host stretch applies the faces stage.
  The index and weight arrays are never written, so every stretch finds them as launched.
-/
import proofs.«173020_j2516850835707_1_alg».proof.Proof.KernelRun
import proofs.«173020_j2516850835707_1_alg».proof.Proof.FirstProduct
import proofs.«173020_j2516850835707_1_alg».proof.Proof.SecondProduct
import proofs.«173020_j2516850835707_1_alg».proof.Proof.Stages
import proofs.«173020_j2516850835707_1_alg».proof.Proof.HostStretches
import proofs.«173020_j2516850835707_1_alg».proof.Proof.Gen.ReferenceIdeal.Read

set_option maxRecDepth 16384

noncomputable section

open scoped BigOperators

namespace Cert.KernelIdeal.Folded

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The six arguments as launched, read as the reference's argument types (the same arrays of extended reals and
    of 32-bit words) -/

abbrev xs (c : Dev nD) : (⟨Cert.ReferenceIdeal.S200000x128, .f32⟩ : BufTy).Contents (Elt Ideal) := m ((c : Thread nD τ).loc main_arg0)
abbrev rows (c : Dev nD) : (⟨Cert.ReferenceIdeal.S600000, .i32⟩ : BufTy).Contents (Elt Ideal) := m ((c : Thread nD τ).loc main_arg1)
abbrev cols (c : Dev nD) : (⟨Cert.ReferenceIdeal.S600000, .i32⟩ : BufTy).Contents (Elt Ideal) := m ((c : Thread nD τ).loc main_arg2)
abbrev vals (c : Dev nD) : (⟨Cert.ReferenceIdeal.S600000, .f32⟩ : BufTy).Contents (Elt Ideal) := m ((c : Thread nD τ).loc main_arg3)
abbrev w1 (c : Dev nD) : (⟨Cert.ReferenceIdeal.S128x256, .f32⟩ : BufTy).Contents (Elt Ideal) := m ((c : Thread nD τ).loc main_arg4)
abbrev w2 (c : Dev nD) : (⟨Cert.ReferenceIdeal.S256x128, .f32⟩ : BufTy).Contents (Elt Ideal) := m ((c : Thread nD τ).loc main_arg5)

/-! ## A tile-by-tile product is the host's product -/

/-- The host's first product, [200000, 128] by [128, 256]. -/
abbrev hostProduct1 (x : (⟨Cert.ReferenceIdeal.S200000x128, .f32⟩ : BufTy).Contents (Elt Ideal)) (w : (⟨Cert.ReferenceIdeal.S128x256, .f32⟩ : BufTy).Contents (Elt Ideal)) :
    (⟨Cert.ReferenceIdeal.S200000x256, .f32⟩ : BufTy).Contents (Elt Ideal) :=
  Host.dotGeneral (F := Ideal) (φ₁ := .f32) (φ₂ := .f32) Cert.ReferenceIdeal.dot_S200000x128_S128x256_S200000x256_1_0_0_1_n_n none x w
/-- The host's second product, [300000, 256] by [256, 128]. -/
abbrev hostProduct2 (y : (⟨Cert.ReferenceIdeal.S300000x256, .f32⟩ : BufTy).Contents (Elt Ideal)) (w : (⟨Cert.ReferenceIdeal.S256x128, .f32⟩ : BufTy).Contents (Elt Ideal)) :
    (⟨Cert.ReferenceIdeal.S300000x128, .f32⟩ : BufTy).Contents (Elt Ideal) :=
  Host.dotGeneral (F := Ideal) (φ₁ := .f32) (φ₂ := .f32) Cert.ReferenceIdeal.dot_S300000x256_S256x128_S300000x128_1_0_0_1_n_n none y w

/-- The first full product, entry by entry, is the host's `dot_general` of the same operands: both are the sum over the
    depth 128 of left(r, k) · right(k, n). -/
theorem first_product_eq (x : (⟨Cert.ReferenceIdeal.S200000x128, .f32⟩ : BufTy).Contents (Elt Ideal)) (w : (⟨Cert.ReferenceIdeal.S128x256, .f32⟩ : BufTy).Contents (Elt Ideal)) :
    First.product x w = hostProduct1 x w := by
  funext i
  exact (Cert.ReferenceIdeal.Read.val_main_v0_apply x w i).symm

/-- The host's second product at an entry: the sum over the depth 256 of left(r, k) · right(k, n), for ANY operands. -/
theorem hostProduct2_apply (y : (⟨Cert.ReferenceIdeal.S300000x256, .f32⟩ : BufTy).Contents (Elt Ideal)) (w : (⟨Cert.ReferenceIdeal.S256x128, .f32⟩ : BufTy).Contents (Elt Ideal))
    (i : Cert.ReferenceIdeal.S300000x128.Idx) :
    hostProduct2 y w i = ∑ k : Fin 256, y (Cert.ReferenceIdeal.Read.lidx_main_v20 i k) * w (Cert.ReferenceIdeal.Read.ridx_main_v20 i k) := by
  simp only [hostProduct2, Host.dotGeneral]
  rw [Ideal.dotGeneral_apply, ← Equiv.sum_comp (ValueIdx.contrEquiv1 Cert.ReferenceIdeal.dot_S300000x256_S256x128_S300000x128_1_0_0_1_n_n 256 rfl rfl).symm]
  refine Finset.sum_congr rfl fun k _ => ?_
  have hk := ValueIdx.contrEquiv1_symm_val Cert.ReferenceIdeal.dot_S300000x256_S256x128_S300000x128_1_0_0_1_n_n 256 rfl rfl k
  have el : Cert.ReferenceIdeal.dot_S300000x256_S256x128_S300000x128_1_0_0_1_n_n.lhsIdx i ((ValueIdx.contrEquiv1 Cert.ReferenceIdeal.dot_S300000x256_S256x128_S300000x128_1_0_0_1_n_n 256 rfl rfl).symm k) = Cert.ReferenceIdeal.Read.lidx_main_v20 i k := funext fun a => Fin.ext (by
    match a with
    | ⟨0, _⟩ => exact Cert.ReferenceIdeal.Read.lhs_main_v20_0 _ _
    | ⟨1, _⟩ => exact (Cert.ReferenceIdeal.Read.lhs_main_v20_1 _ _).trans hk)
  have er : Cert.ReferenceIdeal.dot_S300000x256_S256x128_S300000x128_1_0_0_1_n_n.rhsIdx i ((ValueIdx.contrEquiv1 Cert.ReferenceIdeal.dot_S300000x256_S256x128_S300000x128_1_0_0_1_n_n 256 rfl rfl).symm k) = Cert.ReferenceIdeal.Read.ridx_main_v20 i k := funext fun a => Fin.ext (by
    match a with
    | ⟨0, _⟩ => exact (Cert.ReferenceIdeal.Read.rhs_main_v20_0 _ _).trans hk
    | ⟨1, _⟩ => exact Cert.ReferenceIdeal.Read.rhs_main_v20_1 _ _)
  rw [el, er]

/-- The second full product is the host's `dot_general`: the sum over the depth 256. -/
theorem second_product_eq (y : (⟨Cert.ReferenceIdeal.S300000x256, .f32⟩ : BufTy).Contents (Elt Ideal)) (w : (⟨Cert.ReferenceIdeal.S256x128, .f32⟩ : BufTy).Contents (Elt Ideal)) :
    Second.product y w = hostProduct2 y w := by
  funext i
  exact (hostProduct2_apply y w i).symm

/-! ## Entering the first grid -/

theorem entry1_lhs (c : Dev nD) : (V1 m ρ c main_v0 : FVec Ideal S200000x128 .bf16) = xs m c := Stretch.first_lhs (W0 m ρ c)
theorem entry1_rhs (c : Dev nD) : (V1 m ρ c main_v1 : FVec Ideal S128x256 .bf16) = w1 m c := Stretch.first_rhs (W0 m ρ c)
theorem entry1_rows (c : Dev nD) : W1 m ρ c (Proc.devRef .tc main_arg1) = rows m c := Stretch.first_keeps_arg1 (W0 m ρ c)
theorem entry1_cols (c : Dev nD) : W1 m ρ c (Proc.devRef .tc main_arg2) = cols m c := Stretch.first_keeps_arg2 (W0 m ρ c)
theorem entry1_vals (c : Dev nD) : W1 m ρ c (Proc.devRef .tc main_arg3) = vals m c := Stretch.first_keeps_arg3 (W0 m ρ c)
theorem entry1_w2 (c : Dev nD) : W1 m ρ c (Proc.devRef .tc main_arg5) = w2 m c := Stretch.first_keeps_arg5 (W0 m ρ c)

/-! ## Leaving the first grid -/

/-- The first grid's result array: `x · W1`. -/
theorem exit1_product (c : Dev nD) : W2 m ρ c (Proc.devRef .tc main_v2) = hostProduct1 (xs m c) (w1 m c) :=
  (W2_arr m ρ c 2).trans ((First.array_eq (V1 m ρ) c).trans
    ((congrArg₂ First.product (entry1_lhs m ρ c) (entry1_rhs m ρ c)).trans (first_product_eq (xs m c) (w1 m c))))
theorem exit1_rows (c : Dev nD) : W2 m ρ c (Proc.devRef .tc main_arg1) = rows m c :=
  (W2_of_ne m ρ c main_arg1 (by decide)).trans (entry1_rows m ρ c)
theorem exit1_cols (c : Dev nD) : W2 m ρ c (Proc.devRef .tc main_arg2) = cols m c :=
  (W2_of_ne m ρ c main_arg2 (by decide)).trans (entry1_cols m ρ c)
theorem exit1_vals (c : Dev nD) : W2 m ρ c (Proc.devRef .tc main_arg3) = vals m c :=
  (W2_of_ne m ρ c main_arg3 (by decide)).trans (entry1_vals m ρ c)
theorem exit1_w2 (c : Dev nD) : W2 m ρ c (Proc.devRef .tc main_arg5) = w2 m c :=
  (W2_of_ne m ρ c main_arg5 (by decide)).trans (entry1_w2 m ρ c)

/-! ## Entering the second grid -/

/-- The second product's left operand: the edges stage of `x · W1`. -/
theorem entry2_lhs (c : Dev nD) : (V3 m ρ c main_v22 : FVec Ideal S300000x256 .bf16)
    = Cert.ReferenceIdeal.Stages.toEdges (F := Ideal) (hostProduct1 (xs m c) (w1 m c)) (rows m c) (cols m c) (vals m c) := by
  refine (Stretch.second_lhs (W2 m ρ c)).trans ?_
  rw [exit1_product, exit1_rows, exit1_cols, exit1_vals]
theorem entry2_rhs (c : Dev nD) : (V3 m ρ c main_v23 : FVec Ideal S256x128 .bf16) = w2 m c :=
  (Stretch.second_rhs (W2 m ρ c)).trans (exit1_w2 m ρ c)
theorem entry2_rows (c : Dev nD) : W3 m ρ c (Proc.devRef .tc main_arg1) = rows m c :=
  (Stretch.second_keeps_arg1 (W2 m ρ c)).trans (exit1_rows m ρ c)
theorem entry2_cols (c : Dev nD) : W3 m ρ c (Proc.devRef .tc main_arg2) = cols m c :=
  (Stretch.second_keeps_arg2 (W2 m ρ c)).trans (exit1_cols m ρ c)
theorem entry2_vals (c : Dev nD) : W3 m ρ c (Proc.devRef .tc main_arg3) = vals m c :=
  (Stretch.second_keeps_arg3 (W2 m ρ c)).trans (exit1_vals m ρ c)

/-! ## Leaving the second grid -/

/-- The second grid's result array: `(edges stage of x · W1) · W2`. -/
theorem exit2_product (c : Dev nD) : W4 m ρ c (Proc.devRef .tc main_v24)
    = hostProduct2 (Cert.ReferenceIdeal.Stages.toEdges (F := Ideal) (hostProduct1 (xs m c) (w1 m c)) (rows m c) (cols m c) (vals m c)) (w2 m c) :=
  (W4_arr m ρ c 2).trans ((Second.array_eq (V3 m ρ) c).trans
    ((congrArg₂ Second.product (entry2_lhs m ρ c) (entry2_rhs m ρ c)).trans (second_product_eq _ (w2 m c))))
theorem exit2_rows (c : Dev nD) : W4 m ρ c (Proc.devRef .tc main_arg1) = rows m c :=
  (W4_of_ne m ρ c main_arg1 (by decide)).trans (entry2_rows m ρ c)
theorem exit2_cols (c : Dev nD) : W4 m ρ c (Proc.devRef .tc main_arg2) = cols m c :=
  (W4_of_ne m ρ c main_arg2 (by decide)).trans (entry2_cols m ρ c)
theorem exit2_vals (c : Dev nD) : W4 m ρ c (Proc.devRef .tc main_arg3) = vals m c :=
  (W4_of_ne m ρ c main_arg3 (by decide)).trans (entry2_vals m ρ c)

/-! ## The result -/

/-- The result buffer at the end of the program: the reference's function of the six arguments. -/
theorem result_eq (c : Dev nD) : W5 m ρ c (Proc.devRef .tc main_v43)
    = Cert.ReferenceIdeal.Stages.result (F := Ideal) (xs m c) (rows m c) (cols m c) (vals m c) (w1 m c) (w2 m c) := by
  refine (Stretch.third_result (W4 m ρ c)).trans ?_
  rw [exit2_product, exit2_rows, exit2_cols, exit2_vals]
  rfl

/-- The idealized kernel's run: every weakly fair execution terminates with the result buffer at the reference's function
    of the arguments' launch contents and the arguments unchanged. -/
theorem run : θ_run defs (onTc (τ := τ) (main (F := Ideal))) ⟨m, fun _ => 0, ρ⟩ (fun r => ∀ c : Dev nD,
      r.2.mem ((c.tc : Thread nD τ).loc main_v43) = Cert.ReferenceIdeal.Stages.result (F := Ideal) (xs m c) (rows m c) (cols m c) (vals m c) (w1 m c) (w2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Whole.run_result m ρ)

end Cert.KernelIdeal.Folded

end
-- ==== Proof.lean ====
/-
  Two incidence-matrix message-passing layers, kernel against reference, over the extended reals.

  Both programs compute, from face features `x` (200000 × 128), 600000 incidence triples (edge index, face index,
  weight) and two weight matrices, the array
      faces stage ( (edges stage ( x · W1 )) · W2 ),
  where a stage gathers the rows its source indices name, scales them by the triples' weights, sums them into the rows
  its target indices name and applies the logistic function 1 / (1 + exp(−·)). The kernel differs from the reference
  in two ways only: it rounds the operands of each matrix product to a narrower float format, and it computes each
  product on the device in tiles of rows (25 tiles of 8000 rows, then 50 tiles of 6000 rows) into a zero accumulator.
  Over the extended reals a change of float format is the identity, and a tile of the product is the product
  restricted to the tile's rows, entry by entry the same finite sum over the depth; so the two results are the same
  function of the arguments. No law of arithmetic beyond reading both products as that sum is used, and the
  precondition (finite inputs) is not needed: the equality holds for every input.

  The frames of the two kernel programs are the generated ones; the reference's frame is its run with the result
  dropped. The idealization rewrote nothing, so there is nothing to preserve.
-/
import proofs.«173020_j2516850835707_1_alg».proof.Defs
import proofs.«173020_j2516850835707_1_alg».proof.Proof.Gen.Kernel
import proofs.«173020_j2516850835707_1_alg».proof.Proof.Gen.Kernel.Skeleton
import proofs.«173020_j2516850835707_1_alg».proof.Proof.Gen.Kernel.Launch
import proofs.«173020_j2516850835707_1_alg».proof.Proof.Gen.Kernel.Points
import proofs.«173020_j2516850835707_1_alg».proof.Proof.Gen.Kernel.Frame
import proofs.«173020_j2516850835707_1_alg».proof.Proof.Gen.KernelIdeal
import proofs.«173020_j2516850835707_1_alg».proof.Proof.Gen.KernelIdeal.Skeleton
import proofs.«173020_j2516850835707_1_alg».proof.Proof.Gen.KernelIdeal.Launch
import proofs.«173020_j2516850835707_1_alg».proof.Proof.Gen.KernelIdeal.Points
import proofs.«173020_j2516850835707_1_alg».proof.Proof.Gen.KernelIdeal.Frame
import proofs.«173020_j2516850835707_1_alg».proof.Proof.Gen.ReferenceIdeal
import proofs.«173020_j2516850835707_1_alg».proof.Proof.Gen.Pre_finite_inputs
import proofs.«173020_j2516850835707_1_alg».proof.Proof.Gen.ReferenceIdeal.Run
import proofs.«173020_j2516850835707_1_alg».proof.Proof.Gen.ReferenceIdeal.Read
import proofs.«173020_j2516850835707_1_alg».proof.Proof.Stages
import proofs.«173020_j2516850835707_1_alg».proof.Proof.KernelValue
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the idealized reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both idealized programs end with the result buffer at ONE function
    of those arguments (the reference's own spelling of it), so the results are equal entry by entry. -/
theorem algebraic : Cert.algebraic_KernelIdeal_ReferenceIdeal := by
  intro m ρ m' ρ' _ hagree
  refine ⟨fun c => Cert.ReferenceIdeal.Stages.result (F := Ideal) (Cert.KernelIdeal.Folded.xs m c) (Cert.KernelIdeal.Folded.rows m c)
      (Cert.KernelIdeal.Folded.cols m c) (Cert.KernelIdeal.Folded.vals m c) (Cert.KernelIdeal.Folded.w1 m c) (Cert.KernelIdeal.Folded.w2 m c),
    Cert.KernelIdeal.Folded.run m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
